-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 32000#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x32000 : Shape := ⟨2, ![4096, 32000]⟩
abbrev S4096 : Shape := ⟨1, ![4096]⟩
abbrev S4096x1 : Shape := ⟨2, ![4096, 1]⟩
abbrev S32x32000 : Shape := ⟨2, ![32, 32000]⟩
abbrev S32x1 : Shape := ⟨2, ![32, 1]⟩
abbrev S32 : Shape := ⟨1, ![32]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S4096x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S32x32000, .f32⟩
  | .local _ .vmem, ⟨1, _⟩ => ⟨S32x32000, .f32⟩
  | .local _ .vmem, ⟨2, _⟩ => ⟨S32x1, .i32⟩
  | .local _ .vmem, ⟨3, _⟩ => ⟨S32x1, .i32⟩
  | .local _ .vmem, ⟨4, _⟩ => ⟨S32x1, .f32⟩
  | .local _ .vmem, ⟨5, _⟩ => ⟨S32x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  inb_S32x32000_S32x32000_0_0 : ∀ a, (![0, 0] : Fin 2 → Nat) a + S32x32000.size a ≤ S32x32000.size a
  h_S32x32000 : 0 < S32x32000.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x32000_S32 : S32x32000.Reduces [1] S32
  shapeCasts_S32_S32x1 : S32.ShapeCasts S32x1
  broadcasts_S32x1_S32x32000 : S32x1.Broadcasts S32x32000
  iota_S32x32000_d1_w32 : S32x32000.Iotas .tc 32 [1]
  natLt_1_32 : 1 < 32
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S4096x32000.size a
  hwx0_0 : ∀ i : grid0.Coords, EltTy.bits .f32 = 32 ∨ (Rect.block (s := S4096x32000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .i32 = 32 ∨ (Rect.block (s := S4096x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .f32 = 32 ∨ (Rect.block (s := S4096x1) S32x1.size (cc0_transform_2 i) (hinb0_2 i)).WholeWords (EltTy.packing .f32)

variable [Facts₀]

abbrev win0_0 : Pipeline.Window sig grid0 :=
  Pipeline.Window.ofSpec (Memref.whole main_arg0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S1x32000 : Shape := ⟨2, ![1, 32000]⟩

abbrev nBuf : Space → Nat
  | .hbm => 38
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x32000, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x32000, .f32⟩
  | .hbm, ⟨10, _⟩ => ⟨S4096x32000, .f32⟩
  | .hbm, ⟨11, _⟩ => ⟨S4096x1, .i32⟩
  | .hbm, ⟨12, _⟩ => ⟨S1x32000, .i32⟩
  | .hbm, ⟨13, _⟩ => ⟨S4096x32000, .i32⟩
  | .hbm, ⟨14, _⟩ => ⟨S4096x32000, .i32⟩
  | .hbm, ⟨15, _⟩ => ⟨S4096x32000, .i1⟩
  | .hbm, ⟨16, _⟩ => ⟨S_, .f32⟩
  | .hbm, ⟨17, _⟩ => ⟨S_, .f32⟩
  | .hbm, ⟨18, _⟩ => ⟨S4096x32000, .f32⟩
  | .hbm, ⟨19, _⟩ => ⟨S4096x32000, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x32000, .f32⟩
  | .hbm, ⟨24, _⟩ => ⟨S4096x32000, .i1⟩
  | .hbm, ⟨25, _⟩ => ⟨S4096x32000, .f32⟩
  | .hbm, ⟨26, _⟩ => ⟨S_, .f32⟩
  | .hbm, ⟨27, _⟩ => ⟨S4096x32000, .f32⟩
  | .hbm, ⟨28, _⟩ => ⟨S4096x32000, .f32⟩
  | .hbm, ⟨29, _⟩ => ⟨S4096x32000, .f32⟩
  | .hbm, ⟨30, _⟩ => ⟨S4096x32000, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v7 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x32000_0_1 : S4096x1.BroadcastsInDim S4096x32000 (![0, 1] : Fin 2 → Fin S4096x32000.rank)
  bcast_S1x32000_S4096x32000_0_1 : S1x32000.BroadcastsInDim S4096x32000 (![0, 1] : Fin 2 → Fin S4096x32000.rank)
  bcast_S_S4096x32000 : S_.BroadcastsInDim S4096x32000 (![] : Fin 0 → Fin S4096x32000.rank)
  reducesTo_S4096_S_d0 : S4096.ReducesTo [0] S_

variable [Facts₀]

class Facts : Prop extends Facts₀ where

variable [Facts]
-- ==== Proof.Spec.lean ====
/-
  The mathematics both programs compute, stated row by row on the extended reals.

  For a row of scores `x : Fin 32000 → EReal` and its label word `lab`:
  * `den x = (∑ₖ exp (x k)) + ε` is the row's normaliser and `prob x k = exp (x k) / den x` the entry's
    normalised weight; `lterm x k = log (1 + (ε - prob x k))` is the entry's loss term.
  * One program keeps an entry when its RAW score is below the raw score at the label column, which it finds as
    the sum over the row of "the score where the column number is the label, else 0" (`labelScore`); it negates
    each row's sum (`rowK`) and averages the rows (`resultK`).
  * The other keeps an entry when its WEIGHT is below the least weight over the labelled columns — the minimum over the
    row of "the weight where the label is the column number, else +∞" (`minProb`); it sums each row (`rowR`),
    averages, and negates the average (`resultR`).
  That the two results agree when every score is a real number and every label is a column number is proved in
  the algebra module; nothing here depends on a program.
-/
import Idealize.ShloMosaic.PureOps.Ideal
import Idealize.ShloMosaic.PureOps.Ideal.Laws

noncomputable section

namespace Cert.Spec

open Idealize.ShloMosaic

/-- The small positive constant both programs add to the normaliser and to `1 - prob` (the f32 nearest 1e-10). -/
def eps : EReal := Ideal.ofBits .f32 0x2EDBE6FF#32
/-- The number of rows, as the float both programs divide the total by (4096). -/
def count : EReal := Ideal.ofBits .f32 0x45800000#32
/-- The fill the masked minimum uses off the labelled columns (the f32 pattern of +∞). -/
def pinf : EReal := Ideal.ofBits .f32 0x7F800000#32

/-- A row of scores. -/
abbrev Row : Type := Fin 32000 → EReal

/-- The row's normaliser: the sum of the exponentials, plus ε. -/
def den (x : Row) : EReal := (∑ k : Fin 32000, Ideal.exp (x k)) + eps
/-- An entry's normalised weight. -/
def prob (x : Row) (k : Fin 32000) : EReal := Ideal.div (Ideal.exp (x k)) (den x)
/-- An entry's loss term `log (1 + (ε - prob))`. -/
def lterm (x : Row) (k : Fin 32000) : EReal := Ideal.log1p (eps - prob x k)

/-- The raw score at the label column, as a sum over the row of the score where the column number equals the
    label word and `0` elsewhere. -/
def labelScore (x : Row) (lab : BitVec 32) : EReal :=
  ∑ k : Fin 32000, Scalar.select (IntOp.cmpi .eq (BitVec.ofNat 32 k.val) lab) (x k) 0
/-- The first program's mask: `1` where the raw score is below the label's raw score, else `0` (the comparison's
    bit widened to a word and read as a signed integer). -/
def maskK (x : Row) (lab : BitVec 32) (k : Fin 32000) : EReal :=
  ((((Ideal.cmp .olt (x k) (labelScore x lab)).setWidth 32).toInt : ℝ) : EReal)
/-- The first program's value for a row: `0` minus the masked sum of the loss terms. -/
def rowK (x : Row) (lab : BitVec 32) : EReal := 0 - ∑ k : Fin 32000, lterm x k * maskK x lab k
/-- The first program's result: the sum of the rows' values divided by the row count. -/
def resultK (X : Fin 4096 → Row) (L : Fin 4096 → BitVec 32) : EReal :=
  Ideal.div (∑ r : Fin 4096, rowK (X r) (L r)) count

/-- The least weight over the labelled columns: the minimum, from +∞, over the row of the weight where the label
    word equals the column number and +∞ elsewhere. -/
def minProb (x : Row) (lab : BitVec 32) : EReal :=
  (Finset.univ : Finset (Fin 32000)).fold min pinf
    (fun k => Scalar.select (IntOp.cmpi .eq lab (BitVec.ofNat 32 k.val)) (prob x k) pinf)
/-- The second program's mask: `1` where the weight is below that minimum, else `0` (the comparison's bit read
    as an unsigned integer). -/
def maskR (x : Row) (lab : BitVec 32) (k : Fin 32000) : EReal :=
  ((((Ideal.cmp .olt (prob x k) (minProb x lab)).toNat : ℝ)) : EReal)
/-- The second program's value for a row: the masked sum of the loss terms. -/
def rowR (x : Row) (lab : BitVec 32) : EReal := ∑ k : Fin 32000, lterm x k * maskR x lab k
/-- The second program's result: minus the quotient of the rows' total by the row count. -/
def resultR (X : Fin 4096 → Row) (L : Fin 4096 → BitVec 32) : EReal :=
  -(Ideal.div (∑ r : Fin 4096, rowR (X r) (L r)) count)

end Cert.Spec

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KernelRow.lean ====
/-
  The value one grid point's body stores, read at a row.

  The body holds a block of 32 rows of scores and the 32 labels beside it, and stores a column of 32 numbers. Every
  intermediate is either pointwise in the block's index or a per-row quantity laid out as a column and broadcast back
  along the row: the row sums are taken along the 32000 columns, re-laid as a `[32, 1]` column, and read at `(p, c)`
  as the value for row `p` whatever the column `c`; the column-number vector reads its own column coordinate. So the
  entry stored for row `p` depends on row `p` of the block and on label `p` alone, and is the specification's
  `rowK` of those two.
-/
import proofs.«179114_j33724083208818_1_alg».proof.Proof.Gen.KernelIdeal.Skeleton
import proofs.«179114_j33724083208818_1_alg».proof.Proof.Spec
import proofs.«179114_j33724083208818_1_alg».proof.Proof.LibKeepdims
import Idealize.ShloMosaic.Lib.Pipeline.Value
import Idealize.ShloMosaic.Lib.ValueIdx
import Idealize.ShloMosaic.PureOps.Ideal.Laws

noncomputable section

namespace Cert.KernelRow

open Idealize.ShloMosaic Idealize.ShloMosaic.ValueIdx Cert.KernelIdeal Cert.KernelIdeal.Gen Cert.Lib.Keepdims

/-- A sum along the 32000 columns, re-laid as a column, read at `(p, u)`: the sum of row `p`. -/
theorem rowSum_col_apply (src : FVec Ideal S32x32000 .f32) (h : S32x32000.Reduces [1] S32) (hφ : FKind.Formats .f32)
    (hacc : (0x00000000#32 : BitVec 32) = 0x00000000#32) (hc : S32.ShapeCasts S32x1) (p : Fin 32) (u : Fin 1) :
    shapeCast S32x1 (multiReduction .add [1] S32 src 0x00000000#32 h hφ hacc) hc (ix2 p u) = ∑ k : Fin 32000, src (ix2 p k) := by
  refine (shapeCast_a_a1_apply _ hc p u).trans ?_
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- A `[32, 1]` column broadcast along the row, read at `(p, k)`: the column's entry for row `p`. -/
theorem col_bcast_apply {α : Type} (v : S32x1.Idx → α) (h : S32x1.Broadcasts S32x32000) (p : Fin 32) (k : Fin 32000) :
    broadcastTo S32x32000 v h (ix2 p k) = v (ix2 p (0 : Fin 1)) :=
  broadcastTo_a1_ab_apply v h p k

/-- The column-number vector read at `(p, k)` is the word `k`. -/
theorem colNumber_apply (h : S32x32000.Iotas .tc 32 [1]) (p : Fin 32) (k : Fin 32000) :
    iota .tc S32x32000 32 [1] h (ix2 p k) = BitVec.ofNat 32 k.val :=
  iota_single_apply .tc S32x32000 32 1 h (ix2 p k)

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem cmpi_apply {s : Shape} {w : Nat} (q : CmpIPredicate) (a b : IVec s w) (i : s.Idx) :
    cmpi q a b i = IntOp.cmpi q (a i) (b i) := rfl

/-- What the body stores for row `p` of its block: the specification's `rowK` of that row of scores and that label. -/
theorem pay_apply (v0 : Vec Ideal S32x32000 .f32) (v1 : Vec Ideal S32x1 .i32) (p : Fin 32) :
    k0_pay1 (F := Ideal) v0 v1 (ix2 p (0 : Fin 1))
      = Cert.Spec.rowK (fun k => v0 (ix2 p k)) (v1 (ix2 p (0 : Fin 1))) := by
  unfold k0_pay1
  unfold Cert.Spec.rowK Cert.Spec.lterm Cert.Spec.maskK Cert.Spec.labelScore Cert.Spec.prob Cert.Spec.den Cert.Spec.eps
  simp only [subf_apply, broadcast_apply]
  rw [rowSum_col_apply]
  refine congrArg₂ (fun a b : EReal => a - b) Ideal.ofBits_zero_f32 (Finset.sum_congr rfl fun k _ => ?_)
  simp only [mulf_apply, log1p_apply, subf_apply, broadcast_apply, divf_apply, exp_apply, col_bcast_apply, addf_apply,
    sitofp_apply, extui_apply, cmpf_apply]
  rw [rowSum_col_apply, rowSum_col_apply]
  simp only [exp_apply, select_apply, cmpi_apply, col_bcast_apply, broadcast_apply, shapeCast_self]
  have hzero : FloatOps.ofBits (F := Ideal) .f32 0x00000000#32 = 0 := Ideal.ofBits_zero_f32
  have hcol : ∀ x : Fin 32000, iota .tc S32x32000 32 [1] iota_S32x32000_d1_w32 (ix2 p x) = BitVec.ofNat 32 x.val :=
    fun x => colNumber_apply _ p x
  simp only [hzero, hcol]
  rfl

end Cert.KernelRow

end
-- ==== Proof.KernelValue.lean ====
/-
  The first program's result as a function of its two argument arrays.

  The launch runs 128 grid points; point `t` is handed rows `32 t … 32 t + 31` of the score array (all 32000 columns) and
  of the label column, and writes back rows `32 t … 32 t + 31` of a `[4096, 1]` column. What it writes for a row is the
  specification's `rowK` of that row of scores and that row's label, so every written block is a block of ONE
  function of the arrays (`outArr`), the 128 blocks cover the column (row `r` is in point `r / 32`'s block), and the
  column after the launch is that function. The label column the launch reads is the label vector re-laid as
  `[4096, 1]`, whose entry `(r, 0)` is label `r`. After the launch the program sums the column from `0` and divides by
  the row count: at the exact values that is the specification's `resultK`.
-/
import proofs.«179114_j33724083208818_1_alg».proof.Proof.Gen.KernelIdeal.Frame
import proofs.«179114_j33724083208818_1_alg».proof.Proof.KernelRow
import Idealize.ShloMosaic.Lib.Pipeline.Value
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The value for row `r`, from the score array and the label column. -/
def rowOf (X : S4096x32000.Idx → EReal) (Lb : S4096x1.Idx → BitVec 32) (r : Fin 4096) : EReal :=
  Cert.Spec.rowK (fun k => X (ix2 r k)) (Lb (ix2 r (0 : Fin 1)))

/-- The output column as one function of the two arrays. -/
def outArr (X : S4096x32000.Idx → EReal) (Lb : S4096x1.Idx → BitVec 32) : S4096x1.Idx → EReal :=
  fun i => rowOf X Lb ⟨(i 0).val, (i 0).isLt⟩

theorem hz : (![0, 0] : Fin 2 → Nat) = fun _ => 0 := funext fun a => by fin_cases a <;> rfl

/-- Where each window's block sits at point `t`: block row `t`, block column `0`, for all three windows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What the body stores at `(p, q)` of its block, when the score block's row `p` is row `b·32 + p` of the array and
    the label block's entry `p` is entry `b·32 + p` of the label column: the value for row `b·32 + p`. -/
theorem block_entry (x0 : Vec Ideal S32x32000 .f32) (x1 : Vec Ideal S32x1 .i32) (X : S4096x32000.Idx → EReal)
    (Lb : S4096x1.Idx → BitVec 32) (b : Nat) (p : Fin 32) (q : Fin 1) (hb : b * 32 + p.val < 4096)
    (h0 : ∀ k : Fin 32000, x0 (ix2 p k) = X (ix2 (⟨b * 32 + p.val, hb⟩ : Fin 4096) k))
    (h1 : x1 (ix2 p (0 : Fin 1)) = Lb (ix2 (⟨b * 32 + p.val, hb⟩ : Fin 4096) (0 : Fin 1))) :
    k0_pay1 (F := Ideal) x0 x1 (ix2 p q) = rowOf X Lb ⟨b * 32 + p.val, hb⟩ := by
  obtain rfl : q = 0 := Subsingleton.elim _ _
  rw [Cert.KernelRow.pay_apply]
  unfold rowOf
  rw [h1]
  exact congrArg (fun f : Fin 32000 → EReal => Cert.Spec.rowK f _) (funext h0)

/-- What point `t` writes back is block `t` of `outArr` of the arrays as the launch finds them. -/
theorem flushed_eq (c : Dev nD) (t : Fin cfg0.N) :
    (dats m 0 c).flushed 2 t = ((cfg0.win 2).blk t).view.read (Elt Ideal) (outArr (V m c main_arg0) (V m c main_v0)) := by
  show (cfg0.win 2).cut (grid0.coords t) ((dats m 0 c).after 2 t) = _
  rw [after0_2]
  unfold out0_2
  rw [View.canon_unit_zero hz]
  simp only [View.ld_unit_zero (S := S32x32000) hz, View.ld_unit_zero (S := S32x1) hz]
  obtain ⟨e00, e01, e10, e11, e20, e21⟩ := idx_facts t
  have ht : t.val < 128 := Nat.lt_of_lt_of_eq t.isLt N_0
  funext j
  obtain ⟨p, q, rfl⟩ : ∃ (p : Fin 32) (q : Fin 1), j = ix2 p q := ⟨j 0, j 1, eq_ix2 (n0 := 32) (n1 := 1) j⟩
  have hb : t.val * 32 + p.val < 4096 := by have := p.isLt; omega
  show k0_pay1 (iblk m c 0 t) (iblk m c 1 t) (ix2 p q)
    = outArr (V m c main_arg0) (V m c main_v0) (((cfg0.win 2).blk t).view.emb (ix2 p q))
  refine (block_entry (iblk m c 0 t) (iblk m c 1 t) (V m c main_arg0) (V m c main_v0) t.val p q hb ?_ ?_).trans ?_
  · intro k
    show V m c main_arg0 (((cfg0.win 0).blk t).view.emb (ix2 p k)) = V m c main_arg0 (ix2 (⟨t.val * 32 + p.val, hb⟩ : Fin 4096) k)
    refine congrArg (V m c main_arg0) (funext fun a => Fin.ext ?_)
    match a with
    | ⟨0, _⟩ => show win0_0.index t (0 : Fin 2) * 32 + 1 * p.val = t.val * 32 + p.val; omega
    | ⟨1, _⟩ => show win0_0.index t (1 : Fin 2) * 32000 + 1 * k.val = k.val; omega
  · show V m c main_v0 (((cfg0.win 1).blk t).view.emb (ix2 p (0 : Fin 1))) = V m c main_v0 (ix2 (⟨t.val * 32 + p.val, hb⟩ : Fin 4096) (0 : Fin 1))
    refine congrArg (V m c main_v0) (funext fun a => Fin.ext ?_)
    match a with
    | ⟨0, _⟩ => show win0_1.index t (0 : Fin 2) * 32 + 1 * p.val = t.val * 32 + p.val; omega
    | ⟨1, _⟩ => show win0_1.index t (1 : Fin 2) * 1 + 1 * 0 = 0; omega
  · unfold outArr
    refine congrArg (rowOf (V m c main_arg0) (V m c main_v0)) (Fin.ext ?_)
    show t.val * 32 + p.val = win0_2.index t (0 : Fin 2) * 32 + 1 * p.val
    omega

/-- An index of the column is in point `t`'s block iff each coordinate is in the block's range on its axis. -/
theorem mem_blk (t : Fin cfg0.N) (i : S4096x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v1).slice (win0_2.rect t)).set ↔ _
  rw [View.set_slice_whole, Rect.mem_set_unit]
  exact Iff.rfl

/-- Every row of the column is in some point's block: row `r` in point `r / 32`'s. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 128 := N_0
  obtain ⟨t, htv⟩ : ∃ t : Fin cfg0.N, t.val = (i 0).val / 32 := ⟨⟨(i 0).val / 32, by rw [hN]; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- The column after the launch. -/
theorem final (c : Dev nD) : (dats m 0 c).arrAt 2 cfg0.N = outArr (V m c main_arg0) (V m c main_v0) :=
  (dats m 0 c).arrAt_eq_of_cover 2 _ (fun t _ => flushed_eq m c t) cover

/-- The label column the launch finds is the label vector re-laid as a column. -/
theorem labels_col (c : Dev nD) :
    (V m c main_v0 : S4096x1.Idx → BitVec 32)
      = shapeCast S4096x1 (m ((c : Thread nD τ).loc main_arg1)) shapeCasts_S4096_S4096x1 := by
  show StableHlo.after hostOps0 (fun b => m (c, b)) (Proc.devRef .tc main_v0) = _
  after_results
  rfl

/-- The program's result after the launch: the column summed from the zero pattern, divided by the count pattern. -/
theorem tail_eq (c : Dev nD) :
    Pipeline.afterTail₀ cfgs (dats m) 0 (V0 m) [hostOps1] c main_v3
      = Host.divf (Host.reduceAdd ((dats m 0 c).arrAt 2 cfg0.N) (constant (F := Ideal) S_ .f32 0x00000000#32) reducesTo_S4096x1_S_d0_1 h_S_)
          (constant (F := Ideal) S_ .f32 0x45800000#32) := by
  unfold Pipeline.afterTail₀
  show StableHlo.after hostOps1 _ (Proc.devRef .tc main_v3) = _
  after_results
  exact congrArg (fun a : S4096x1.Idx → EReal =>
      Host.divf (F := Ideal) (Host.reduceAdd (F := Ideal) (φ := .f32) a (constant (F := Ideal) S_ .f32 0x00000000#32) reducesTo_S4096x1_S_d0_1 h_S_)
        (constant (F := Ideal) S_ .f32 0x45800000#32))
    (Pipeline.withArrays_arr spec0 winFacts0.arr_inj c (V0 m c) (fun w => (dats m 0 c).arrAt w cfg0.N) 2)

/-- The host's sum of a `[4096, 1]` column from the zero pattern is the sum of its 4096 entries. -/
theorem total_apply (y : S4096x1.Idx → EReal) (i : S_.Idx) :
    Host.reduceAdd (F := Ideal) (φ := .f32) y (constant (F := Ideal) S_ .f32 0x00000000#32) reducesTo_S4096x1_S_d0_1 h_S_ i
      = ∑ r : Fin 4096, y (ix2 r (0 : Fin 1)) := by
  simp only [Host.reduceAdd, Ideal.hostReduceAdd_def]
  rw [Ideal.hostReduceAdd_total reducesTo_S4096x1_S_d0_1 (fun b => b.elim0) y _ i, sum_idx2]
  simp only [Fin.sum_univ_one]
  show Ideal.ofBits .f32 0x00000000#32 + _ = _
  rw [Ideal.ofBits_zero_f32, zero_add]

/-- The specification's first result, of the argument arrays as launched. -/
def res (c : Dev nD) : Buf (Elt Ideal) ((c : Thread nD τ).loc main_v3) :=
  fun _ => Cert.Spec.resultK (fun r k => m ((c : Thread nD τ).loc main_arg0) (ix2 r k))
    (fun r => m ((c : Thread nD τ).loc main_arg1) (ix1 r))

/-- The program's result is the specification's first result of the two argument arrays. -/
theorem result_eq (c : Dev nD) : Pipeline.afterTail₀ cfgs (dats m) 0 (V0 m) [hostOps1] c main_v3 = res m c := by
  rw [tail_eq, final, V_main_arg0, labels_col]
  funext i
  show Ideal.div (Host.reduceAdd (F := Ideal) (φ := .f32) _ (constant (F := Ideal) S_ .f32 0x00000000#32) reducesTo_S4096x1_S_d0_1 h_S_ i)
    (Ideal.ofBits .f32 0x45800000#32) = _
  rw [total_apply]
  unfold res Cert.Spec.resultK Cert.Spec.count
  refine congrArg (fun s : EReal => Ideal.div s (Ideal.ofBits .f32 0x45800000#32)) (Finset.sum_congr rfl fun r _ => ?_)
  unfold outArr rowOf
  show Cert.Spec.rowK _ (shapeCast S4096x1 (m ((c : Thread nD τ).loc main_arg1)) shapeCasts_S4096_S4096x1 (ix2 r (0 : Fin 1))) = _
  rw [Cert.Lib.Keepdims.shapeCast_a_a1_apply]

/-- Every weakly fair execution of the first program ends with its result at the specification's first result of
    the argument arrays, and the argument arrays unchanged. -/
theorem run : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelValue

end
-- ==== Proof.RefRead.lean ====
/-
  The reference program read as the row-by-row mathematics of the specification.

  Each stage of the reference is read at explicit coordinates: row r (of 4096) and column k (of 32000).  Row r
  of the scores is the function k ↦ X0 (r, k) and its label word is L0 r.  Stage by stage the program computes the
  exponential, the row's normaliser, the normalised weight, the labelled-column mask, the masked minimum of the
  weights, the comparison mask, the loss term, the masked row sum, the total over the rows, its quotient by the row
  count and the negation: exactly resultR of the specification.
-/
import proofs.«179114_j33724083208818_1_alg».proof.Proof.Spec
import proofs.«179114_j33724083208818_1_alg».proof.Proof.Gen.ReferenceIdeal.Read
import Idealize.ShloMosaic.Lib.ValueIdx
import Idealize.ShloMosaic.PureOps.Ideal.Laws
import Idealize.ShloMosaic.PureOps.Reduce

noncomputable section

namespace Cert.RefRead

open Idealize.ShloMosaic Idealize.ShloMosaic.ValueIdx Cert.ReferenceIdeal Cert.ReferenceIdeal.Gen Cert.ReferenceIdeal.Read

/-! ## The composed index functions of the generated reading, at explicit coordinates -/

/-- Column k of the row over the rank-1 index r is the entry (r, k). -/
theorem idx_v1_ix (r : Fin 4096) (k : Fin 32000) : idx_main_v1 (ix1 r) k = ix2 r k :=
  funext fun a => Fin.ext (by match a with | ⟨0, _⟩ => rfl | ⟨1, _⟩ => rfl)

theorem idx_v18_ix (r : Fin 4096) (k : Fin 32000) : idx_main_v18 (ix1 r) k = ix2 r k :=
  funext fun a => Fin.ext (by match a with | ⟨0, _⟩ => rfl | ⟨1, _⟩ => rfl)

/-- The two broadcasts that spread a per-row quantity over the row's entries read it back at row r. -/
theorem idx_v2_v5_ix (r : Fin 4096) (k : Fin 32000) : idx_main_v2 (idx_main_v5 (ix2 r k)) = ix1 r :=
  funext fun a => Fin.ext (by match a with | ⟨0, _⟩ => rfl)

theorem idx_v10_v11_ix (r : Fin 4096) (k : Fin 32000) : idx_main_v10 (idx_main_v11 (ix2 r k)) = ix1 r :=
  funext fun a => Fin.ext (by match a with | ⟨0, _⟩ => rfl)

theorem idx_c0v0_c0v2_ix (r : Fin 4096) (k : Fin 32000) :
    idx_main_call0_v0 (idx_main_call0_v2 (ix2 r k)) = ix1 r :=
  funext fun a => Fin.ext (by match a with | ⟨0, _⟩ => rfl)

section
variable (X0 : (⟨S4096x32000, .f32⟩ : BufTy).Contents (Elt Ideal)) (L0 : (⟨S4096, .i32⟩ : BufTy).Contents (Elt Ideal))

/-- Row r of the scores. -/
abbrev row (r : Fin 4096) : Cert.Spec.Row := fun k => X0 (ix2 r k)

/-! ## The row quantities -/

/-- Stage 0 at (r, k): the exponential of the score. -/
theorem v0_at (r : Fin 4096) (k : Fin 32000) : val_main_v0 (F := Ideal) X0 (ix2 r k) = Ideal.exp (X0 (ix2 r k)) := by
  rw [val_main_v0_apply]; rfl

/-- Stage 1 at r: the sum of the row's exponentials. -/
theorem v1_at (r : Fin 4096) : val_main_v1 (F := Ideal) X0 (ix1 r) = ∑ k : Fin 32000, Ideal.exp (X0 (ix2 r k)) := by
  rw [val_main_v1_apply, val_main_cst_apply, Ideal.ofBits_def, Ideal.ofBits_zero_f32, zero_add]
  refine Finset.sum_congr rfl fun k _ => ?_
  rw [idx_v1_ix, v0_at]

/-- Stage 5 at (r, k): the row's normaliser. -/
theorem v5_at (r : Fin 4096) (k : Fin 32000) : val_main_v5 (F := Ideal) X0 (ix2 r k) = Cert.Spec.den (row X0 r) := by
  rw [val_main_v5_apply, val_main_v4_apply, val_main_v2_apply, val_main_v3_apply, val_main_cst_0_apply,
    idx_v2_v5_ix, v1_at]
  rfl

/-- Stage 6 at (r, k): the entry's normalised weight. -/
theorem v6_at (r : Fin 4096) (k : Fin 32000) : val_main_v6 (F := Ideal) X0 (ix2 r k) = Cert.Spec.prob (row X0 r) k := by
  rw [val_main_v6_apply, v0_at, v5_at]
  rfl

/-- Stage 7 at (r, k): the bit "the label word of row r is the column number k". -/
theorem v7_at (r : Fin 4096) (k : Fin 32000) :
    val_main_v7 (F := Ideal) L0 (ix2 r k) = IntOp.cmpi .eq (L0 (ix1 r)) (BitVec.ofNat 32 k.val) := by
  rw [val_main_v7_apply, val_main_call0_v2_apply, val_main_call0_v0_apply, val_main_call0_v3_apply,
    val_main_call0_v1_apply, idx_c0v0_c0v2_ix]

/-- Stage 8 at (r, k): the weight on the labelled column, +∞ elsewhere. -/
theorem v8_at (r : Fin 4096) (k : Fin 32000) :
    val_main_v8 (F := Ideal) X0 L0 (ix2 r k)
      = Scalar.select (IntOp.cmpi .eq (L0 (ix1 r)) (BitVec.ofNat 32 k.val)) (Cert.Spec.prob (row X0 r) k) Cert.Spec.pinf := by
  rw [val_main_v8_apply, v7_at, v6_at, val_main_call1_v1_apply, val_main_call1_v0_apply, val_main_cst_1_apply]
  rfl

/-! ## The masked minimum -/

/-- Putting column k back into the rank-1 index r gives the entry (r, k). -/
theorem lift_ix (h : S4096x32000.Reduces [1] S4096) (r : Fin 4096) (k : Fin (S4096x32000.size 1)) :
    h.lift (ix1 r) k = ix2 r (⟨k.val, k.isLt⟩ : Fin 32000) := by
  funext c; apply Fin.ext
  fin_cases c <;> rfl

/-- Stage 9 at r: the least weight over the labelled columns of row r, from +∞. -/
theorem v9_at (r : Fin 4096) :
    val_main_v9 (F := Ideal) X0 L0 (ix1 r) = Cert.Spec.minProb (row X0 r) (L0 (ix1 r)) := by
  have h : S4096x32000.Reduces [1] S4096 := by decide
  unfold val_main_v9
  rw [Host.reduce_eq_fold_single FloatOps.minimumf _ _ reducesTo_S4096x32000_S4096_d1 h h_S_, val_main_cst_2_apply]
  have hf : (val_main_v8 (F := Ideal) X0 L0 ∘ h.lift (ix1 r))
      = fun k : Fin 32000 => Scalar.select (IntOp.cmpi .eq (L0 (ix1 r)) (BitVec.ofNat 32 k.val))
          (Cert.Spec.prob (row X0 r) k) Cert.Spec.pinf :=
    funext fun k => by
      show val_main_v8 (F := Ideal) X0 L0 (h.lift (ix1 r) k) = _
      rw [lift_ix, v8_at]
      rfl
  rw [hf]
  rfl

/-- Stage 11 at (r, k): that minimum, spread over the row. -/
theorem v11_at (r : Fin 4096) (k : Fin 32000) :
    val_main_v11 (F := Ideal) X0 L0 (ix2 r k) = Cert.Spec.minProb (row X0 r) (L0 (ix1 r)) := by
  rw [val_main_v11_apply, val_main_v10_apply, idx_v10_v11_ix, v9_at]

/-! ## The mask, the loss term and the row's value -/

/-- Stage 13 at (r, k): 1 where the weight is below the minimum, else 0. -/
theorem v13_at (r : Fin 4096) (k : Fin 32000) :
    val_main_v13 (F := Ideal) X0 L0 (ix2 r k) = Cert.Spec.maskR (row X0 r) (L0 (ix1 r)) k := by
  rw [val_main_v13_apply, val_main_v12_apply, v6_at, v11_at]
  rfl

/-- Stage 16 at (r, k): the loss term log (1 + (ε − weight)). -/
theorem v16_at (r : Fin 4096) (k : Fin 32000) :
    val_main_v16 (F := Ideal) X0 (ix2 r k) = Cert.Spec.lterm (row X0 r) k := by
  rw [val_main_v16_apply, val_main_v15_apply, val_main_v14_apply, val_main_cst_3_apply, v6_at,
    Ideal.hostUnary_log1p_def, Ideal.subf_def, Ideal.ofBits_def]
  unfold Cert.Spec.lterm Cert.Spec.eps
  rfl

/-- Stage 17 at (r, k): the masked loss term. -/
theorem v17_at (r : Fin 4096) (k : Fin 32000) :
    val_main_v17 (F := Ideal) X0 L0 (ix2 r k)
      = Cert.Spec.lterm (row X0 r) k * Cert.Spec.maskR (row X0 r) (L0 (ix1 r)) k := by
  rw [val_main_v17_apply, v16_at, v13_at]
  rfl

/-- Stage 18 at r: the row's masked sum of loss terms. -/
theorem v18_at (r : Fin 4096) :
    val_main_v18 (F := Ideal) X0 L0 (ix1 r) = Cert.Spec.rowR (row X0 r) (L0 (ix1 r)) := by
  rw [val_main_v18_apply, val_main_cst_4_apply, Ideal.ofBits_def, Ideal.ofBits_zero_f32, zero_add]
  refine Finset.sum_congr rfl fun k _ => ?_
  rw [idx_v18_ix, v17_at]

/-! ## The total over the rows -/

/-- A rank-1 index of extent 4096 is its one coordinate. -/
def idxEquiv1 : S4096.Idx ≃ Fin 4096 where
  toFun j := j 0
  invFun := ix1
  left_inv j := (eq_ix1 j).symm
  right_inv _ := rfl

/-- Stage 19: the sum of the rows' values. -/
theorem v19_at (i : S_.Idx) :
    val_main_v19 (F := Ideal) X0 L0 i = ∑ r : Fin 4096, Cert.Spec.rowR (row X0 r) (L0 (ix1 r)) := by
  rw [val_main_v19_apply, val_main_cst_5_apply, Ideal.ofBits_def, Ideal.ofBits_zero_f32, zero_add]
  rw [← Equiv.sum_comp idxEquiv1.symm (val_main_v18 (F := Ideal) X0 L0)]
  exact Finset.sum_congr rfl fun r _ => v18_at X0 L0 r

end

/-- THE REFERENCE IS THE SPECIFICATION'S SECOND RESULT: minus the quotient of the rows' total by the row count. -/
theorem ref_eq (X0 : (⟨S4096x32000, .f32⟩ : BufTy).Contents (Elt Ideal)) (L0 : (⟨S4096, .i32⟩ : BufTy).Contents (Elt Ideal)) :
    val_main_v21 (F := Ideal) X0 L0 = fun _ => Cert.Spec.resultR (fun r k => X0 (ix2 r k)) (fun r => L0 (ix1 r)) := by
  funext i
  rw [val_main_v21_apply, val_main_v20_apply, v19_at, val_main_cst_6_apply]
  rfl

end Cert.RefRead

end
-- ==== Proof.PreDecode.lean ====
/-
  The precondition, read back elementwise.

  The precondition is the conjunction of three "for all" statements, each a fold by `and` from the bit 1 over an
  array of one-bit comparisons: every score has absolute value below +∞, every label word is at least 0 as a signed
  integer, and every label word is below 32000 as a signed integer. A fold by `and` that comes out 1 met only 1s,
  so each comparison holds at every index. On the extended reals the absolute value of `a` is `max a (-a)`; it is
  below `⊤` exactly when `a` is neither `⊤` nor `⊥`, that is, when `a` is a real number.
-/
import proofs.«179114_j33724083208818_1_alg».proof.Pre_finite_inputs
import proofs.«179114_j33724083208818_1_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Idealize.ShloMosaic

/-- The scalar shape has exactly one index. -/
instance subsingleton_scalar_idx : Subsingleton Cert.Pre_finite_inputs.S_.Idx :=
  ⟨fun a b => funext fun d => d.elim0⟩

/-- The f32 pattern `0x7F800000` denotes `⊤`. -/
theorem pinf_eq_top : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ v : ℝ, a = (v : EReal) := by
  induction a using EReal.rec with
  | bot => simp at h
  | coe v => exact ⟨v, rfl⟩
  | top => simp at h

/-- The ordered "less than" comparison of extended reals gives the bit 1 exactly when the strict inequality holds. -/
theorem cmp_olt_eq_one (x y : EReal) : Ideal.cmp .olt x y = 1#1 ↔ x < y := by
  unfold Ideal.cmp
  by_cases hxy : x < y
  · simp [hxy]
  · simp [hxy]

theorem decode [hF : Cert.Pre_finite_inputs.Facts]
    (A : FVec Ideal Cert.Pre_finite_inputs.S4096x32000 .f32) (B : IVec Cert.Pre_finite_inputs.S4096 32)
    (h : Cert.Pre_finite_inputs.fn (F := Ideal) A B = fun _ => 1#1) :
    (∀ i, ∃ v : ℝ, A i = (v : EReal)) ∧ (∀ j, 0 ≤ (B j).toInt ∧ (B j).toInt < 32000) := by
  have h0 := congrFun h ValueIdx.ix0
  unfold Cert.Pre_finite_inputs.fn at h0
  dsimp only at h0
  obtain ⟨h12, h3⟩ := IntOp.andi_eq_one.1 h0
  obtain ⟨h1, h2⟩ := IntOp.andi_eq_one.1 h12
  refine ⟨fun i => ?_, fun j => ⟨?_, ?_⟩⟩
  · have e : Ideal.cmp .olt (max (A i) (-(A i))) (Ideal.ofBits .f32 0x7F800000#32) = 1#1 :=
      Host.reduce_andi_all _ _ _ _ ValueIdx.ix0 h1 i
    rw [pinf_eq_top, cmp_olt_eq_one] at e
    exact real_of_abs_lt_top (A i) e
  · have e : IntOp.cmpi .sge (B j) 0#32 = 1#1 := Host.reduce_andi_all _ _ _ _ ValueIdx.ix0 h2 j
    have e' := IntOp.cmpi_sge.1 e
    simpa using e'
  · have e : IntOp.cmpi .slt (B j) 32000#32 = 1#1 := Host.reduce_andi_all _ _ _ _ ValueIdx.ix0 h3 j
    have e' := IntOp.cmpi_slt.1 e
    simpa using e'

end Cert.PreDecode

end
-- ==== Proof.Algebra.lean ====
/-
  The two row-by-row formulas of the specification module agree when every score is a real number and every
  label is a column number.  Everything here is mathematics on the extended reals.
-/
import proofs.«179114_j33724083208818_1_alg».proof.Proof.Spec

noncomputable section

namespace Cert.Algebra

open Idealize.ShloMosaic
open Cert.Spec

/-! ### The three literals -/

/-- The fill value is +∞. -/
theorem pinf_eq : pinf = ⊤ := by
  simp [pinf, Ideal.ofBits, Ideal.ieee]

/-- ε is a positive real. -/
theorem eps_eq : ∃ e : ℝ, 0 < e ∧ eps = ((e : ℝ) : EReal) := by
  refine ⟨_, ?_, by simp [eps, Ideal.ofBits, Ideal.ieee, -EReal.coe_mul]; rfl⟩
  norm_num

/-- The row count is the real 4096. -/
theorem count_eq : count = ((4096 : ℝ) : EReal) := by
  simp [count, Ideal.ofBits, Ideal.ieee, -EReal.coe_mul]; norm_num

/-! ### The label word and the column it names -/

/-- A label word whose signed value lies in `[0, 32000)` is the word of a column number. -/
theorem exists_col (lab : BitVec 32) (h : 0 ≤ lab.toInt ∧ lab.toInt < 32000) :
    ∃ l : Fin 32000, lab = BitVec.ofNat 32 l.val := by
  have hlt : lab.toNat < 2 ^ 32 := lab.isLt
  rw [BitVec.toInt_eq_toNat_cond] at h
  have hn : lab.toNat < 32000 := by
    split at h <;> omega
  exact ⟨⟨lab.toNat, hn⟩, by simp⟩

/-- Two column numbers have the same word exactly when they are the same column. -/
theorem ofNat_col_inj (k l : Fin 32000) : BitVec.ofNat 32 k.val = BitVec.ofNat 32 l.val ↔ k = l := by
  constructor
  · intro h
    have h' := congrArg BitVec.toNat h
    simp only [BitVec.toNat_ofNat] at h'
    have hk := k.isLt
    have hl := l.isLt
    apply Fin.ext
    omega
  · intro h; rw [h]

/-- The equality comparison of two words gives the bit 1 exactly when the words are equal. -/
theorem cmpi_eq_one (a b : BitVec 32) : IntOp.cmpi .eq a b = (1 : BitVec 1) ↔ a = b := by
  unfold IntOp.cmpi
  by_cases h : a = b
  · subst h; simp
  · have hb : (a == b) = false := by simpa using h
    simp [hb, h]

/-- The word comparison of a column number with the label's column number selects the first branch exactly at
    the label's column. -/
theorem select_col (k l : Fin 32000) (a b : EReal) :
    Scalar.select (IntOp.cmpi .eq (BitVec.ofNat 32 k.val) (BitVec.ofNat 32 l.val)) a b = if k = l then a else b := by
  unfold Scalar.select
  by_cases h : k = l
  · rw [if_pos ((cmpi_eq_one _ _).2 ((ofNat_col_inj k l).2 h)), if_pos h]
  · rw [if_neg (fun e => h ((ofNat_col_inj k l).1 ((cmpi_eq_one _ _).1 e))), if_neg h]

/-- The same with the two words in the other order. -/
theorem select_col' (k l : Fin 32000) (a b : EReal) :
    Scalar.select (IntOp.cmpi .eq (BitVec.ofNat 32 l.val) (BitVec.ofNat 32 k.val)) a b = if k = l then a else b := by
  unfold Scalar.select
  by_cases h : k = l
  · rw [if_pos ((cmpi_eq_one _ _).2 ((ofNat_col_inj l k).2 h.symm)), if_pos h]
  · rw [if_neg (fun e => h ((ofNat_col_inj l k).1 ((cmpi_eq_one _ _).1 e)).symm), if_neg h]

/-- The masked sum that finds the label's raw score is that score. -/
theorem labelScore_eq (x : Row) (l : Fin 32000) : labelScore x (BitVec.ofNat 32 l.val) = x l := by
  unfold labelScore
  simp only [select_col]
  rw [Finset.sum_ite_eq' Finset.univ l x]
  simp

/-! ### A row of real scores -/

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The normaliser of a row of reals is a positive real. -/
theorem den_real (v : Fin 32000 → ℝ) :
    ∃ D : ℝ, 0 < D ∧ den (fun k => ((v k : ℝ) : EReal)) = ((D : ℝ) : EReal) := by
  obtain ⟨e, he, hee⟩ := eps_eq
  refine ⟨(∑ k : Fin 32000, Real.exp (v k)) + e, ?_, ?_⟩
  · have : 0 ≤ ∑ k : Fin 32000, Real.exp (v k) := Finset.sum_nonneg fun k _ => (Real.exp_pos _).le
    linarith
  · unfold den
    simp only [Ideal.exp_coe]
    rw [coe_sum, hee, EReal.coe_add]

/-- Each weight of a row of reals is the real quotient. -/
theorem prob_real (v : Fin 32000 → ℝ) (D : ℝ) (hD : 0 < D)
    (hden : den (fun k => ((v k : ℝ) : EReal)) = ((D : ℝ) : EReal)) (k : Fin 32000) :
    prob (fun k => ((v k : ℝ) : EReal)) k = ((Real.exp (v k) / D : ℝ) : EReal) := by
  unfold prob
  rw [hden, Ideal.div_coe hD.ne', Ideal.exp_coe, ← EReal.coe_mul, mul_one_div]

/-! ### The least weight over the labelled columns -/

/-- The minimum, from +∞, of the function that is the label column's weight there and +∞ elsewhere is that
    weight. -/
theorem minProb_eq (x : Row) (l : Fin 32000) : minProb x (BitVec.ofNat 32 l.val) = prob x l := by
  unfold minProb
  simp only [select_col', pinf_eq]
  apply le_antisymm
  · exact (Finset.fold_min_le _).2 (Or.inr ⟨l, Finset.mem_univ l, by simp⟩)
  · refine (Finset.le_fold_min _).2 ⟨le_top, fun k _ => ?_⟩
    by_cases h : k = l
    · subst h; simp
    · simp [h]

/-! ### The two masks -/

/-- A comparison bit, widened to a word and read as a signed integer, is 1 or 0. -/
theorem ofBool_setWidth_toInt (b : Bool) : ((BitVec.ofBool b).setWidth 32).toInt = if b then 1 else 0 := by
  cases b <;> decide

/-- A comparison bit read as an unsigned integer is 1 or 0. -/
theorem ofBool_toNat (b : Bool) : (BitVec.ofBool b).toNat = if b then 1 else 0 := by
  cases b <;> decide

/-- The first mask on a row of reals: 1 where the score is below the label's score, else 0. -/
theorem maskK_eq (v : Fin 32000 → ℝ) (l k : Fin 32000) :
    maskK (fun k => ((v k : ℝ) : EReal)) (BitVec.ofNat 32 l.val) k = if v k < v l then 1 else 0 := by
  unfold maskK
  rw [labelScore_eq]
  show ((((BitVec.ofBool (decide (((v k : ℝ) : EReal) < ((v l : ℝ) : EReal)))).setWidth 32).toInt : ℝ) : EReal) = _
  rw [ofBool_setWidth_toInt]
  by_cases h : v k < v l
  · rw [decide_eq_true (EReal.coe_lt_coe_iff.2 h), if_pos h]; simp
  · rw [decide_eq_false (fun e => h (EReal.coe_lt_coe_iff.1 e)), if_neg h]; simp

/-- The second mask on a row of reals is the same: the weights are the exponentials over one positive
    normaliser, and both the exponential and the division by a positive number keep the strict order. -/
theorem maskR_eq (v : Fin 32000 → ℝ) (D : ℝ) (hD : 0 < D)
    (hden : den (fun k => ((v k : ℝ) : EReal)) = ((D : ℝ) : EReal)) (l k : Fin 32000) :
    maskR (fun k => ((v k : ℝ) : EReal)) (BitVec.ofNat 32 l.val) k = if v k < v l then 1 else 0 := by
  unfold maskR
  rw [minProb_eq, prob_real v D hD hden k, prob_real v D hD hden l]
  show ((((BitVec.ofBool (decide (((Real.exp (v k) / D : ℝ) : EReal) < ((Real.exp (v l) / D : ℝ) : EReal)))).toNat
    : ℝ)) : EReal) = _
  rw [ofBool_toNat]
  have hiff : ((Real.exp (v k) / D : ℝ) : EReal) < ((Real.exp (v l) / D : ℝ) : EReal) ↔ v k < v l := by
    rw [EReal.coe_lt_coe_iff, div_lt_div_iff_of_pos_right hD, Real.exp_lt_exp]
  by_cases h : v k < v l
  · rw [decide_eq_true (hiff.2 h), if_pos h]; simp
  · rw [decide_eq_false (fun e => h (hiff.1 e)), if_neg h]; simp

/-! ### Sums in the extended reals that avoid +∞ -/

/-- A finite sum of terms none of which is +∞ is not +∞. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- Negation passes through a finite sum of terms none of which is +∞ (so no `+∞ - ∞` can occur). -/
theorem sum_neg {ι : Type} (s : Finset ι) (f : ι → EReal) (h : ∀ i ∈ s, f i ≠ ⊤) :
    ∑ i ∈ s, -(f i) = -(∑ i ∈ s, f i) := by
  classical
  induction s using Finset.induction_on with
  | empty => simp
  | insert a s ha ih =>
    have h1 : f a ≠ ⊤ := h a (Finset.mem_insert_self a s)
    have h2 : ∀ i ∈ s, f i ≠ ⊤ := fun i hi => h i (Finset.mem_insert_of_mem hi)
    rw [Finset.sum_insert ha, Finset.sum_insert ha, ih h2,
      EReal.neg_add (Or.inr (sum_ne_top s f h2)) (Or.inl h1), sub_eq_add_neg]

/-! ### One row -/

/-- A loss term of a row of reals is the logarithm of a real: a real or -∞, never +∞. -/
theorem lterm_ne_top (v : Fin 32000 → ℝ) (D : ℝ) (hD : 0 < D)
    (hden : den (fun k => ((v k : ℝ) : EReal)) = ((D : ℝ) : EReal)) (k : Fin 32000) :
    lterm (fun k => ((v k : ℝ) : EReal)) k ≠ ⊤ := by
  obtain ⟨e, _, hee⟩ := eps_eq
  unfold lterm Ideal.log1p
  rw [prob_real v D hD hden k, hee, ← EReal.coe_sub, ← EReal.coe_one, ← EReal.coe_add, Ideal.log_coe]
  split_ifs
  · exact bot_ne_top
  · exact EReal.coe_ne_top _

/-- The first program's row value is minus the second's. -/
theorem rowK_eq (v : Fin 32000 → ℝ) (D : ℝ) (hD : 0 < D)
    (hden : den (fun k => ((v k : ℝ) : EReal)) = ((D : ℝ) : EReal)) (l : Fin 32000) :
    rowK (fun k => ((v k : ℝ) : EReal)) (BitVec.ofNat 32 l.val)
      = -(rowR (fun k => ((v k : ℝ) : EReal)) (BitVec.ofNat 32 l.val)) := by
  unfold rowK rowR
  rw [sub_eq_add_neg, zero_add,
    Finset.sum_congr rfl (fun k _ => by rw [maskK_eq v l k, ← maskR_eq v D hD hden l k])]

/-- The second program's row value is not +∞. -/
theorem rowR_ne_top (v : Fin 32000 → ℝ) (D : ℝ) (hD : 0 < D)
    (hden : den (fun k => ((v k : ℝ) : EReal)) = ((D : ℝ) : EReal)) (l : Fin 32000) :
    rowR (fun k => ((v k : ℝ) : EReal)) (BitVec.ofNat 32 l.val) ≠ ⊤ := by
  unfold rowR
  apply sum_ne_top
  intro k _
  rw [maskR_eq v D hD hden l k]
  split_ifs
  · rw [mul_one]; exact lterm_ne_top v D hD hden k
  · rw [mul_zero]; exact EReal.zero_ne_top

/-! ### The two results -/

/-- The two programs' results agree on real scores and in-range labels. -/
theorem result_eq (X : Fin 4096 → Cert.Spec.Row) (L : Fin 4096 → BitVec 32)
    (hX : ∀ r k, ∃ v : ℝ, X r k = (v : EReal))
    (hL : ∀ r, 0 ≤ (L r).toInt ∧ (L r).toInt < 32000) :
    Cert.Spec.resultK X L = Cert.Spec.resultR X L := by
  choose v hv using hX
  have hXr : ∀ r, X r = fun k => ((v r k : ℝ) : EReal) := fun r => funext (hv r)
  have hrow : ∀ r, rowK (X r) (L r) = -(rowR (X r) (L r)) ∧ rowR (X r) (L r) ≠ ⊤ := by
    intro r
    obtain ⟨l, hl⟩ := exists_col (L r) (hL r)
    obtain ⟨D, hD, hden⟩ := den_real (v r)
    rw [hXr r, hl]
    exact ⟨rowK_eq (v r) D hD hden l, rowR_ne_top (v r) D hD hden l⟩
  unfold resultK resultR
  rw [Finset.sum_congr rfl (fun r _ => (hrow r).1), sum_neg _ _ (fun r _ => (hrow r).2), count_eq,
    Ideal.div_coe (by norm_num), Ideal.div_coe (by norm_num), EReal.neg_mul]

end Cert.Algebra

end
-- ==== Proof.lean ====
/-
  Two programs compute one masked loss over a `[4096, 32000]` array of scores and 4096 labels.

  Both normalise each row of exponentials by the row's sum plus a small ε and take `log (1 + (ε - weight))` of every
  entry. The first keeps the entries whose RAW score is below the raw score at the row's label column, negates each
  row's sum, and averages the rows; the second keeps the entries whose WEIGHT is below the least weight over the
  labelled columns, sums, averages, and negates the average. On a row of real scores the weights are the exponentials
  over one positive number, so the two orders — of scores and of weights — are the same, and with the label a column
  number the label column's weight is that least weight: the two masks agree. No row's sum is `+∞` (a logarithm of a
  real is a real or `-∞`), so negating row by row and negating the total are the same. Hence equal results whenever
  the scores are finite and the labels are column numbers, which is the precondition.

  The modules: `Spec` states the two results row by row; `KernelRow` and `KernelValue` read the first program's
  result as `Spec.resultK` of its argument arrays (what each grid point stores, the stored blocks covering the column,
  the sum and quotient after the launch); `RefRead` reads the second program's term as `Spec.resultR`; `PreDecode`
  reads the precondition elementwise; `Algebra` proves the two results equal. The three frames are the generated
  ones (the second program's is its generated run with the result dropped), and the first program is its own
  idealization with nothing rewritten.
-/
import proofs.«179114_j33724083208818_1_alg».proof.Defs
import proofs.«179114_j33724083208818_1_alg».proof.Proof.Gen.Kernel
import proofs.«179114_j33724083208818_1_alg».proof.Proof.Gen.Kernel.Skeleton
import proofs.«179114_j33724083208818_1_alg».proof.Proof.Gen.Kernel.Launch
import proofs.«179114_j33724083208818_1_alg».proof.Proof.Gen.Kernel.Points
import proofs.«179114_j33724083208818_1_alg».proof.Proof.Gen.Kernel.Frame
import proofs.«179114_j33724083208818_1_alg».proof.Proof.Gen.KernelIdeal
import proofs.«179114_j33724083208818_1_alg».proof.Proof.Gen.KernelIdeal.Skeleton
import proofs.«179114_j33724083208818_1_alg».proof.Proof.Gen.KernelIdeal.Launch
import proofs.«179114_j33724083208818_1_alg».proof.Proof.Gen.KernelIdeal.Points
import proofs.«179114_j33724083208818_1_alg».proof.Proof.Gen.KernelIdeal.Frame
import proofs.«179114_j33724083208818_1_alg».proof.Proof.Gen.ReferenceIdeal
import proofs.«179114_j33724083208818_1_alg».proof.Proof.Gen.ReferenceIdeal.Run
import proofs.«179114_j33724083208818_1_alg».proof.Proof.Gen.ReferenceIdeal.Read
import proofs.«179114_j33724083208818_1_alg».proof.Proof.Gen.Pre_finite_inputs
import proofs.«179114_j33724083208818_1_alg».proof.Proof.KernelValue
import proofs.«179114_j33724083208818_1_alg».proof.Proof.RefRead
import proofs.«179114_j33724083208818_1_alg».proof.Proof.PreDecode
import proofs.«179114_j33724083208818_1_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
/-- The second program has no launch: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the first program was rewritten to read it at the exact values. -/
theorem preserves : Cert.preserves_Kernel_KernelIdeal := trivial

/-- From memories agreeing on the arguments both programs end at the first program's specified result: the second
    program's term is `Spec.resultR` of the same arrays, and under the precondition (real scores, labels that are column
    numbers) the two specified results are equal. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefRead.ref_eq, (hagree c).1, (hagree c).2]
  obtain ⟨hX, hL⟩ := Cert.PreDecode.decode _ _ (hpre c)
  funext _
  exact (Cert.Algebra.result_eq _ _ (fun r k => hX (ix2 r k)) (fun r => hL (ix1 r))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
